-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x256 : Shape := ⟨3, ![2048, 64, 256]⟩
abbrev S64 : Shape := ⟨1, ![64]⟩
abbrev S256x512 : Shape := ⟨2, ![256, 512]⟩
abbrev S512 : Shape := ⟨1, ![512]⟩
abbrev S_ : Shape := ⟨0, ![]⟩

class Facts : Prop where
  bcast_S_S2048x64x256 : S_.BroadcastsInDim S2048x64x256 (![] : Fin 0 → Fin S2048x64x256.rank)
  reducesTo_S2048x64x256_S_d0_1_2 : S2048x64x256.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg6 : FVec F S512 .f32) (main_arg7 : FVec F S256x512 .f32) (main_arg8 : FVec F S512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S256x512 .f32 := Host.absf main_arg7
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S2048x64x256 .f32) (main_arg1 : IVec S64 32) (main_arg2 : IVec S64 32) (main_arg3 : FVec F S256x512 .f32) (main_arg4 : FVec F S512 .f32) (main_arg5 : FVec F S256x512 .f32) (main_arg6 : FVec F S512 .f32) (main_arg7 : FVec F S256x512 .f32) (main_arg8 : FVec F S512 .f32) : IVec S_ 1 :=
  let main_v0 : FVec F S2048x64x256 .f32 := Host.absf main_arg0
  let main_cst : FVec F S_ .f32 := constant S_ .f32 0x7F800000#32
  let main_v1 : FVec F S2048x64x256 .f32 := broadcastInDim S2048x64x256 ![] bcast_S_S2048x64x256 main_cst
  let main_v2 : IVec S2048x64x256 1 := cmpf .olt main_v0 main_v1
  let main_c : IVec S_ 1 := constantI S_ 1 1#1
  let main_v3 : IVec S_ 1 := (fun x v => Host.reduce IntOp.andi x v reducesTo_S2048x64x256_S_d0_1_2 h_S_) main_v2 main_c
  let main_v4 : FVec F S256x512 .f32 := Host.absf main_arg3
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S256x512 .f32 := Host.absf main_arg5
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg6 main_arg7 main_arg8 main_v13 main_v16
-- ==== Kernel.lean ====
abbrev S2048x64x256 : Shape := ⟨3, ![2048, 64, 256]⟩
abbrev S64 : Shape := ⟨1, ![64]⟩
abbrev S256x512 : Shape := ⟨2, ![256, 512]⟩
abbrev S512 : Shape := ⟨1, ![512]⟩
abbrev S_ : Shape := ⟨0, ![]⟩
abbrev S64x2048 : Shape := ⟨2, ![64, 2048]⟩
abbrev S131072 : Shape := ⟨1, ![131072]⟩
abbrev S131072x1 : Shape := ⟨2, ![131072, 1]⟩
abbrev S131072x256 : Shape := ⟨2, ![131072, 256]⟩
abbrev S1x512 : Shape := ⟨2, ![1, 512]⟩
abbrev S131072x512 : Shape := ⟨2, ![131072, 512]⟩
abbrev S2048x256 : Shape := ⟨2, ![2048, 256]⟩
abbrev S2048x1 : Shape := ⟨2, ![2048, 1]⟩
abbrev S2048x512 : Shape := ⟨2, ![2048, 512]⟩
abbrev S2048x64x512 : Shape := ⟨3, ![2048, 64, 512]⟩

abbrev nBuf : Space → Nat
  | .hbm => 40
  | .vmem => 16
  | .smem => 0
  | _ => 0

abbrev bufTy : (tb : Table) → Fin (tcTables nBuf tb) → BufTy
  | .hbm, ⟨0, _⟩ => ⟨S2048x64x256, .f32⟩
  | .hbm, ⟨1, _⟩ => ⟨S64, .i32⟩
  | .hbm, ⟨2, _⟩ => ⟨S64, .i32⟩
  | .hbm, ⟨3, _⟩ => ⟨S256x512, .f32⟩
  | .hbm, ⟨4, _⟩ => ⟨S512, .f32⟩
  | .hbm, ⟨5, _⟩ => ⟨S256x512, .f32⟩
  | .hbm, ⟨6, _⟩ => ⟨S512, .f32⟩
  | .hbm, ⟨7, _⟩ => ⟨S256x512, .f32⟩
  | .hbm, ⟨8, _⟩ => ⟨S512, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64x2048, .f32⟩
  | .hbm, ⟨23, _⟩ => ⟨S131072, .f32⟩
  | .hbm, ⟨24, _⟩ => ⟨S131072x1, .f32⟩
  | .hbm, ⟨25, _⟩ => ⟨S64x2048, .f32⟩
  | .hbm, ⟨26, _⟩ => ⟨S131072, .f32⟩
  | .hbm, ⟨27, _⟩ => ⟨S131072x1, .f32⟩
  | .hbm, ⟨28, _⟩ => ⟨S64x2048, .f32⟩
  | .hbm, ⟨29, _⟩ => ⟨S131072, .f32⟩
  | .hbm, ⟨30, _⟩ => ⟨S131072x1, .f32⟩
  | .hbm, ⟨31, _⟩ => ⟨S131072x256, .f32⟩
  | .hbm, ⟨32, _⟩ => ⟨S256x512, .bf16⟩
  | .hbm, ⟨33, _⟩ => ⟨S256x512, .bf16⟩
  | .hbm, ⟨34, _⟩ => ⟨S256x512, .bf16⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S131072x512, .f32⟩
  | .hbm, ⟨39, _⟩ => ⟨S2048x64x512, .f32⟩
  | .local _ .vmem, ⟨0, _⟩ => ⟨S2048x256, .f32⟩
  | .local _ .vmem, ⟨1, _⟩ => ⟨S2048x256, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | .local _ .vmem, ⟨13, _⟩ => ⟨S2048x1, .f32⟩
  | .local _ .vmem, ⟨14, _⟩ => ⟨S2048x512, .f32⟩
  | .local _ .vmem, ⟨15, _⟩ => ⟨S2048x512, .f32⟩
  | _, _ => ⟨S2048x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S64 : S_.BroadcastsInDim S64 (![] : Fin 0 → Fin S64.rank)
  bcast_S64_S64x2048_0 : S64.BroadcastsInDim S64x2048 (![0] : Fin 1 → Fin S64x2048.rank)
  shapeCasts_S64x2048_S131072 : S64x2048.ShapeCasts S131072
  shapeCasts_S131072_S131072x1 : S131072.ShapeCasts S131072x1
  shapeCasts_S2048x64x256_S131072x256 : S2048x64x256.ShapeCasts S131072x256
  bitsLt_bf16_f32 : FTy.bits .bf16 < FTy.bits .f32
  shapeCasts_S512_S1x512 : S512.ShapeCasts S1x512
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  inb_S2048x512_S2048x512_0_0 : ∀ a, (![0, 0] : Fin 2 → Nat) a + S2048x512.size a ≤ S2048x512.size a
  h_S2048x512 : 0 < S2048x512.numel
  shapeCasts_S131072x512_S2048x64x512 : S131072x512.ShapeCasts S2048x64x512
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1.size a ≤ S131072x1.size a
  hwx0_7 : ∀ i : grid0.Coords, EltTy.bits .f32 = 32 ∨ (Rect.block (s := S131072x1) S2048x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x1.size a ≤ S131072x1.size a
  hwx0_8 : ∀ i : grid0.Coords, EltTy.bits .f32 = 32 ∨ (Rect.block (s := S131072x1) S2048x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x1.size a ≤ S131072x1.size a
  hwx0_9 : ∀ i : grid0.Coords, EltTy.bits .f32 = 32 ∨ (Rect.block (s := S131072x1) S2048x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x512.size a ≤ S131072x512.size a
  hwx0_10 : ∀ i : grid0.Coords, EltTy.bits .f32 = 32 ∨ (Rect.block (s := S131072x512) S2048x512.size (cc0_transform_10 i) (hinb0_10 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_v19) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S2048x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v15) S2048x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v18) S2048x1.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v26) S2048x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2048x64x256 : Shape := ⟨3, ![2048, 64, 256]⟩
abbrev S64 : Shape := ⟨1, ![64]⟩
abbrev S256x512 : Shape := ⟨2, ![256, 512]⟩
abbrev S512 : Shape := ⟨1, ![512]⟩
abbrev S_ : Shape := ⟨0, ![]⟩
abbrev S131072x256 : Shape := ⟨2, ![131072, 256]⟩
abbrev S131072x512 : Shape := ⟨2, ![131072, 512]⟩
abbrev S1x512 : Shape := ⟨2, ![1, 512]⟩
abbrev S64x2048 : Shape := ⟨2, ![64, 2048]⟩
abbrev S131072 : Shape := ⟨1, ![131072]⟩
abbrev S131072x1 : Shape := ⟨2, ![131072, 1]⟩
abbrev S2048x64x512 : Shape := ⟨3, ![2048, 64, 512]⟩

abbrev nBuf : Space → Nat
  | .hbm => 53
  | .vmem => 0
  | .smem => 0
  | _ => 0

abbrev bufTy : (tb : Table) → Fin (tcTables nBuf tb) → BufTy
  | .hbm, ⟨0, _⟩ => ⟨S2048x64x256, .f32⟩
  | .hbm, ⟨1, _⟩ => ⟨S64, .i32⟩
  | .hbm, ⟨2, _⟩ => ⟨S64, .i32⟩
  | .hbm, ⟨3, _⟩ => ⟨S256x512, .f32⟩
  | .hbm, ⟨4, _⟩ => ⟨S512, .f32⟩
  | .hbm, ⟨5, _⟩ => ⟨S256x512, .f32⟩
  | .hbm, ⟨6, _⟩ => ⟨S512, .f32⟩
  | .hbm, ⟨7, _⟩ => ⟨S256x512, .f32⟩
  | .hbm, ⟨8, _⟩ => ⟨S512, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S131072x256, .f32⟩
  | .hbm, ⟨23, _⟩ => ⟨S131072x512, .f32⟩
  | .hbm, ⟨24, _⟩ => ⟨S1x512, .f32⟩
  | .hbm, ⟨25, _⟩ => ⟨S131072x512, .f32⟩
  | .hbm, ⟨26, _⟩ => ⟨S131072x512, .f32⟩
  | .hbm, ⟨27, _⟩ => ⟨S131072x512, .f32⟩
  | .hbm, ⟨28, _⟩ => ⟨S1x512, .f32⟩
  | .hbm, ⟨29, _⟩ => ⟨S131072x512, .f32⟩
  | .hbm, ⟨30, _⟩ => ⟨S131072x512, .f32⟩
  | .hbm, ⟨31, _⟩ => ⟨S131072x512, .f32⟩
  | .hbm, ⟨32, _⟩ => ⟨S1x512, .f32⟩
  | .hbm, ⟨33, _⟩ => ⟨S131072x512, .f32⟩
  | .hbm, ⟨34, _⟩ => ⟨S131072x512, .f32⟩
  | .hbm, ⟨35, _⟩ => ⟨S64x2048, .f32⟩
  | .hbm, ⟨36, _⟩ => ⟨S131072, .f32⟩
  | .hbm, ⟨37, _⟩ => ⟨S64x2048, .f32⟩
  | .hbm, ⟨38, _⟩ => ⟨S131072, .f32⟩
  | .hbm, ⟨39, _⟩ => ⟨S64x2048, .f32⟩
  | .hbm, ⟨40, _⟩ => ⟨S131072, .f32⟩
  | .hbm, ⟨41, _⟩ => ⟨S131072x1, .f32⟩
  | .hbm, ⟨42, _⟩ => ⟨S131072x512, .f32⟩
  | .hbm, ⟨43, _⟩ => ⟨S131072x512, .f32⟩
  | .hbm, ⟨44, _⟩ => ⟨S131072x1, .f32⟩
  | .hbm, ⟨45, _⟩ => ⟨S131072x512, .f32⟩
  | .hbm, ⟨46, _⟩ => ⟨S131072x512, .f32⟩
  | .hbm, ⟨47, _⟩ => ⟨S131072x512, .f32⟩
  | .hbm, ⟨48, _⟩ => ⟨S131072x1, .f32⟩
  | .hbm, ⟨49, _⟩ => ⟨S131072x512, .f32⟩
  | .hbm, ⟨50, _⟩ => ⟨S131072x512, .f32⟩
  | .hbm, ⟨51, _⟩ => ⟨S131072x512, .f32⟩
  | .hbm, ⟨52, _⟩ => ⟨S2048x64x512, .f32⟩
  | _, _ => ⟨S2048x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]

class Facts₀ : Prop where
  bcast_S_S64 : S_.BroadcastsInDim S64 (![] : Fin 0 → Fin S64.rank)
  shapeCasts_S2048x64x256_S131072x256 : S2048x64x256.ShapeCasts S131072x256
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S64_S64x2048_0 : S64.BroadcastsInDim S64x2048 (![0] : Fin 1 → Fin S64x2048.rank)
  shapeCasts_S64x2048_S131072 : S64x2048.ShapeCasts S131072
  bcast_S131072_S131072x1_0 : S131072.BroadcastsInDim S131072x1 (![0] : Fin 1 → Fin S131072x1.rank)
  bcast_S131072x1_S131072x512_0_1 : S131072x1.BroadcastsInDim S131072x512 (![0, 1] : Fin 2 → Fin S131072x512.rank)
  shapeCasts_S131072x512_S2048x64x512 : S131072x512.ShapeCasts S2048x64x512
  dot_S131072x256_S256x512_S131072x512_1_0_0_1_n_n_wf : DotDims.WF S131072x256 S256x512 S131072x512 [1] [0] [0] [1] [] []

variable [Facts₀]

def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf

class Facts : Prop extends Facts₀ where

variable [Facts]
-- ==== Proof.Spec.lean ====
/-
  The function both programs compute, as ONE function of the arrays they share.

  The history, flattened to 131072 rows of 256 channels (`flat`), is projected three times — by the weights
  `Wt`, `Wi`, `Wo` (256 × 512) with the biases `bt`, `bi`, `bo` (512) — and the three projections are
  mixed row by row with the role weights `tm r`, `im r`, `om r` of the row:

    combined (r, h) =   ((Σ_k flat (r, k) · Wt (k, h) + bt h) · tm r
                       + (Σ_k flat (r, k) · Wi (k, h) + bi h) · im r)
                      +  (Σ_k flat (r, k) · Wo (k, h) + bo h) · om r.

  Sums, products and additions are those of the extended reals, in exactly this association. Both programs
  compute the value in this association, so no law of arithmetic joins them: only their layouts differ
  (which rows a block holds, a bias as a row, a role weight as a column).
-/
import Idealize.ShloMosaic.PureOps.Ideal
import Idealize.ShloMosaic.Lib.ValueIdx

noncomputable section

namespace Cert.RoleProjection

open Idealize.ShloMosaic Idealize.ShloMosaic.ValueIdx

/-- One projection at row `r` and output column `h`: the inner product of the row with the weight column,
    plus the column's bias. -/
def proj (flat : (⟨2, ![131072, 256]⟩ : Shape).Idx → EReal) (W : (⟨2, ![256, 512]⟩ : Shape).Idx → EReal)
    (b : (⟨1, ![512]⟩ : Shape).Idx → EReal) (r : Fin 131072) (h : Fin 512) : EReal :=
  (∑ k : Fin 256, flat (ix2 r k) * W (ix2 k h)) + b (ix1 h)

/-- The mixed projection at row `r` and column `h`. -/
def combinedAt (flat : (⟨2, ![131072, 256]⟩ : Shape).Idx → EReal)
    (Wt : (⟨2, ![256, 512]⟩ : Shape).Idx → EReal) (bt : (⟨1, ![512]⟩ : Shape).Idx → EReal)
    (Wi : (⟨2, ![256, 512]⟩ : Shape).Idx → EReal) (bi : (⟨1, ![512]⟩ : Shape).Idx → EReal)
    (Wo : (⟨2, ![256, 512]⟩ : Shape).Idx → EReal) (bo : (⟨1, ![512]⟩ : Shape).Idx → EReal)
    (tm im om : (⟨1, ![131072]⟩ : Shape).Idx → EReal) (r : Fin 131072) (h : Fin 512) : EReal :=
  (proj flat Wt bt r h * tm (ix1 r) + proj flat Wi bi r h * im (ix1 r)) + proj flat Wo bo r h * om (ix1 r)

/-- The whole 131072 × 512 array. -/
def combined (flat : (⟨2, ![131072, 256]⟩ : Shape).Idx → EReal)
    (Wt : (⟨2, ![256, 512]⟩ : Shape).Idx → EReal) (bt : (⟨1, ![512]⟩ : Shape).Idx → EReal)
    (Wi : (⟨2, ![256, 512]⟩ : Shape).Idx → EReal) (bi : (⟨1, ![512]⟩ : Shape).Idx → EReal)
    (Wo : (⟨2, ![256, 512]⟩ : Shape).Idx → EReal) (bo : (⟨1, ![512]⟩ : Shape).Idx → EReal)
    (tm im om : (⟨1, ![131072]⟩ : Shape).Idx → EReal) : (⟨2, ![131072, 512]⟩ : Shape).Idx → EReal :=
  fun j => combinedAt flat Wt bt Wi bi Wo bo tm im om (j 0) (j 1)

theorem combined_ix2 (flat : (⟨2, ![131072, 256]⟩ : Shape).Idx → EReal)
    (Wt : (⟨2, ![256, 512]⟩ : Shape).Idx → EReal) (bt : (⟨1, ![512]⟩ : Shape).Idx → EReal)
    (Wi : (⟨2, ![256, 512]⟩ : Shape).Idx → EReal) (bi : (⟨1, ![512]⟩ : Shape).Idx → EReal)
    (Wo : (⟨2, ![256, 512]⟩ : Shape).Idx → EReal) (bo : (⟨1, ![512]⟩ : Shape).Idx → EReal)
    (tm im om : (⟨1, ![131072]⟩ : Shape).Idx → EReal) (r : Fin 131072) (h : Fin 512) :
    combined flat Wt bt Wi bi Wo bo tm im om (ix2 r h) = combinedAt flat Wt bt Wi bi Wo bo tm im om r h := rfl

end Cert.RoleProjection

end
-- ==== Proof.RefIsSpec.lean ====
/-
  The reference computes `combined`.

  Its array before the final reshape — stage 39 of its host program — read at row `r`, column `h`: each
  `dot_general` is the sum over the 256 channels of `flat (r, k) · W (k, h)`; each bias reaches the entry through
  a row [1, 512] broadcast down the rows, so it is read at `h`; each role weight reaches it through a column
  [131072, 1] broadcast along the columns, so it is read at `r`. The products and sums are then the ones of
  `combinedAt`, in the same association.
-/
import proofs.«162440_j10075993277119_1_alg».proof.Proof.Gen.ReferenceIdeal.Read
import proofs.«162440_j10075993277119_1_alg».proof.Proof.Spec

noncomputable section

namespace Cert.ReferenceIdeal.RefValue

open Cert.ReferenceIdeal Cert.ReferenceIdeal.Read Idealize.ShloMosaic Idealize.ShloMosaic.ValueIdx Cert.RoleProjection

/-- Stage 39 of the reference is `combined` of its flattened history, the weights and biases, and its three
    flat role-weight vectors (stages 10, 24, 26, 28). -/
theorem stage39_eq (x0 : (⟨S2048x64x256, .f32⟩ : BufTy).Contents (Elt Ideal)) (x1 x2 : (⟨S64, .i32⟩ : BufTy).Contents (Elt Ideal))
    (x3 : (⟨S256x512, .f32⟩ : BufTy).Contents (Elt Ideal)) (x4 : (⟨S512, .f32⟩ : BufTy).Contents (Elt Ideal))
    (x5 : (⟨S256x512, .f32⟩ : BufTy).Contents (Elt Ideal)) (x6 : (⟨S512, .f32⟩ : BufTy).Contents (Elt Ideal))
    (x7 : (⟨S256x512, .f32⟩ : BufTy).Contents (Elt Ideal)) (x8 : (⟨S512, .f32⟩ : BufTy).Contents (Elt Ideal)) :
    val_main_v39 (F := Ideal) x0 x1 x2 x3 x4 x5 x6 x7 x8
      = combined (val_main_v10 (F := Ideal) x0) x3 x4 x5 x6 x7 x8
          (val_main_v24 (F := Ideal) x1) (val_main_v26 (F := Ideal) x1 x2) (val_main_v28 (F := Ideal) x1 x2) := by
  funext i
  obtain ⟨r, h, rfl⟩ : ∃ (r : Fin 131072) (h : Fin 512), i = ix2 r h := ⟨i 0, i 1, eq_ix2 i⟩
  rw [combined_ix2]
  -- the operand indices of the three contractions: row r of the history against column h of the weights
  have el1 : ∀ k : Fin 256, lidx_main_v11 (ix2 r h) k = ix2 r k := fun k =>
    funext fun a => Fin.ext (by match a with | ⟨0, _⟩ => rfl | ⟨1, _⟩ => rfl)
  have er1 : ∀ k : Fin 256, ridx_main_v11 (ix2 r h) k = ix2 k h := fun k =>
    funext fun a => Fin.ext (by match a with | ⟨0, _⟩ => rfl | ⟨1, _⟩ => rfl)
  have el2 : ∀ k : Fin 256, lidx_main_v15 (ix2 r h) k = ix2 r k := el1
  have er2 : ∀ k : Fin 256, ridx_main_v15 (ix2 r h) k = ix2 k h := er1
  have el3 : ∀ k : Fin 256, lidx_main_v19 (ix2 r h) k = ix2 r k := el1
  have er3 : ∀ k : Fin 256, ridx_main_v19 (ix2 r h) k = ix2 k h := er1
  -- a bias is read at the column
  have eb1 : idx_main_v12 (idx_main_v13 (ix2 r h)) = ix1 h :=
    funext fun a => Fin.ext (by match a with | ⟨0, _⟩ => rfl)
  have eb2 : idx_main_v16 (idx_main_v17 (ix2 r h)) = ix1 h := eb1
  have eb3 : idx_main_v20 (idx_main_v21 (ix2 r h)) = ix1 h := eb1
  -- a role weight is read at the row
  have em1 : idx_main_v29 (idx_main_v30 (ix2 r h)) = ix1 r :=
    funext fun a => Fin.ext (by match a with | ⟨0, _⟩ => rfl)
  have em2 : idx_main_v32 (idx_main_v33 (ix2 r h)) = ix1 r := em1
  have em3 : idx_main_v36 (idx_main_v37 (ix2 r h)) = ix1 r := em1
  rw [val_main_v39_apply, val_main_v35_apply, val_main_v38_apply, val_main_v31_apply, val_main_v34_apply,
    val_main_v14_apply, val_main_v18_apply, val_main_v22_apply,
    val_main_v11_apply, val_main_v15_apply, val_main_v19_apply,
    val_main_v13_apply, val_main_v12_apply, val_main_v17_apply, val_main_v16_apply, val_main_v21_apply, val_main_v20_apply,
    val_main_v30_apply, val_main_v29_apply, val_main_v33_apply, val_main_v32_apply, val_main_v37_apply, val_main_v36_apply]
  simp only [el1, er1, el2, er2, el3, er3, eb1, eb2, eb3, em1, em2, em3]
  rfl

end Cert.ReferenceIdeal.RefValue

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  What the kernel body stores, entry by entry.

  At one grid point the body holds a block `x` of 2048 rows of the flattened history, the three weight
  matrices whole, the three biases as rows [1, 512], and the block's three role weights as columns [2048, 1].
  The value it stores at row `p`, column `q` of the output block is

    ((Σ_k x (p, k) · Wt (k, q) + bt (0, q)) · tm (p, 0) + (Σ_k x (p, k) · Wi (k, q) + bi (0, q)) · im (p, 0))
      + (Σ_k x (p, k) · Wo (k, q) + bo (0, q)) · om (p, 0):

  a matrix product into a zero accumulator is the plain sum over the contracted axis; the change of float format
  before it is the identity on extended reals; a bias row broadcast down the rows is read at its column; a
  role-weight column broadcast along the columns is read at its row.
-/
import proofs.«162440_j10075993277119_1_alg».proof.Proof.Gen.KernelIdeal.Skeleton
import proofs.«162440_j10075993277119_1_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx

/-! ## The matrix product at an entry -/

/-- The left operand is read in the output's row … -/
theorem lhs_row (i : S2048x512.Idx) (c : dot_S2048x256_S256x512_S2048x512_1_0_0_1_n_n.contr.Idx) :
    (dot_S2048x256_S256x512_S2048x512_1_0_0_1_n_n.lhsIdx i c 0).val = (i 0).val := by
  unfold DotDims.lhsIdx
  rw [dif_neg (show ¬(0 : Fin S2048x256.rank) ∈ dot_S2048x256_S256x512_S2048x512_1_0_0_1_n_n.lhsBatch by decide),
    dif_pos (show (0 : Fin S2048x256.rank) ∈ dot_S2048x256_S256x512_S2048x512_1_0_0_1_n_n.lhsNonContracting by decide)]
  rfl
/-- … at the contracted channel, -/
theorem lhs_chan (i : S2048x512.Idx) (c : dot_S2048x256_S256x512_S2048x512_1_0_0_1_n_n.contr.Idx) :
    (dot_S2048x256_S256x512_S2048x512_1_0_0_1_n_n.lhsIdx i c 1).val = (c ⟨0, by decide⟩).val :=
  dot_S2048x256_S256x512_S2048x512_1_0_0_1_n_n.lhsIdx_val_of_single rfl i c
/-- the right operand at the contracted channel … -/
theorem rhs_chan (i : S2048x512.Idx) (c : dot_S2048x256_S256x512_S2048x512_1_0_0_1_n_n.contr.Idx) :
    (dot_S2048x256_S256x512_S2048x512_1_0_0_1_n_n.rhsIdx i c 0).val = (c ⟨0, by decide⟩).val :=
  dot_S2048x256_S256x512_S2048x512_1_0_0_1_n_n.rhsIdx_val_of_single rfl i c
/-- … in the output's column. -/
theorem rhs_col (i : S2048x512.Idx) (c : dot_S2048x256_S256x512_S2048x512_1_0_0_1_n_n.contr.Idx) :
    (dot_S2048x256_S256x512_S2048x512_1_0_0_1_n_n.rhsIdx i c 1).val = (i 1).val := by
  unfold DotDims.rhsIdx
  rw [dif_neg (show ¬(1 : Fin S256x512.rank) ∈ dot_S2048x256_S256x512_S2048x512_1_0_0_1_n_n.rhsBatch by decide),
    dif_pos (show (1 : Fin S256x512.rank) ∈ dot_S2048x256_S256x512_S2048x512_1_0_0_1_n_n.rhsNonContracting by decide)]
  rfl

/-- A [2048, 256] × [256, 512] product into the zero accumulator, at `(p, q)`: the sum over the 256 channels. -/
theorem matmul_at (a : FVec Ideal S2048x256 .bf16) (w : FVec Ideal S256x512 .bf16) (p : Fin 2048) (q : Fin 512) :
    matmul dot_S2048x256_S256x512_S2048x512_1_0_0_1_n_n none a w (constant (F := Ideal) S2048x512 .f32 0x00000000#32) (ix2 p q)
      = ∑ k : Fin 256, a (ix2 p k) * w (ix2 k q) := by
  refine (Ideal.matmul_constant_zero_apply dot_S2048x256_S256x512_S2048x512_1_0_0_1_n_n none a w (ix2 p q)).trans ?_
  rw [← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 p q)
      ((contrEquiv1 dot_S2048x256_S256x512_S2048x512_1_0_0_1_n_n 256 rfl rfl).symm k) = ix2 p k :=
    funext fun ax => Fin.ext (by
      match ax with
      | ⟨0, _⟩ => exact lhs_row _ _
      | ⟨1, _⟩ => exact (lhs_chan _ _).trans hk)
  have er : dot_S2048x256_S256x512_S2048x512_1_0_0_1_n_n.rhsIdx (ix2 p q)
      ((contrEquiv1 dot_S2048x256_S256x512_S2048x512_1_0_0_1_n_n 256 rfl rfl).symm k) = ix2 k q :=
    funext fun ax => Fin.ext (by
      match ax with
      | ⟨0, _⟩ => exact (rhs_chan _ _).trans hk
      | ⟨1, _⟩ => exact rhs_col _ _)
  rw [el, er]

/-! ## The broadcasts at an entry -/

/-- A bias row, broadcast down the 2048 rows, is read at its column. -/
theorem bias_row_at (b : Vec Ideal S1x512 .f32) (p : Fin 2048) (q : Fin 512) :
    broadcastTo S2048x512 (shapeCast S1x512 b shapeCasts_S1x512_S1x512) broadcasts_S1x512_S2048x512 (ix2 p q)
      = b (ix2 (0 : Fin 1) q) := by
  rw [shapeCast_self]
  exact broadcastTo_1b_ab_apply b broadcasts_S1x512_S2048x512 p q

/-- A role-weight column, broadcast along the 512 columns, is read at its row. -/
theorem weight_col_at (w : Vec Ideal S2048x1 .f32) (p : Fin 2048) (q : Fin 512) :
    broadcastTo S2048x512 (shapeCast S2048x1 w shapeCasts_S2048x1_S2048x1) broadcasts_S2048x1_S2048x512 (ix2 p q)
      = w (ix2 p (0 : Fin 1)) := by
  rw [shapeCast_self]
  exact broadcastTo_a1_ab_apply w broadcasts_S2048x1_S2048x512 p q

/-- The change of float format in front of the products is the identity on extended reals. -/
theorem cast_at (x : Vec Ideal S2048x256 .f32) (i : S2048x256.Idx) : k0_pay2 (F := Ideal) x i = x i := by
  unfold k0_pay2
  rw [truncf_apply, shapeCast_self]

/-- One projection of the block at `(p, q)`: the history block against a weight matrix, plus the bias row. -/
theorem proj_at (x : Vec Ideal S2048x256 .f32) (w : FVec Ideal S256x512 .bf16) (b : FVec Ideal S1x512 .f32)
    (p : Fin 2048) (q : Fin 512) :
    matmul dot_S2048x256_S256x512_S2048x512_1_0_0_1_n_n none (k0_pay2 (F := Ideal) x)
        (shapeCast S256x512 w shapeCasts_S256x512_S256x512) (constant (F := Ideal) S2048x512 .f32 0x00000000#32) (ix2 p q)
      + broadcastTo S2048x512 (shapeCast S1x512 b shapeCasts_S1x512_S1x512) broadcasts_S1x512_S2048x512 (ix2 p q)
      = (∑ k : Fin 256, x (ix2 p k) * w (ix2 k q)) + b (ix2 (0 : Fin 1) q) := by
  refine congrArg₂ (· + ·) ((matmul_at _ _ p q).trans (Finset.sum_congr rfl fun k _ => ?_)) (bias_row_at b p q)
  rw [cast_at, shapeCast_self]

/-! ## The stored value -/

/-- The body's stored value at row `p`, column `q` of the block, from the ten loaded blocks. -/
theorem stored_at (x0 : Vec Ideal S2048x256 .f32) (x1 x2 x3 : Vec Ideal S256x512 .bf16)
    (x4 x5 x6 : Vec Ideal S1x512 .f32) (x7 x8 x9 : Vec Ideal S2048x1 .f32) (p : Fin 2048) (q : Fin 512) :
    k0_pay1 (F := Ideal) (k0_pay3 x0 x3 x6) (k0_pay4 x0 x1 x2 x4 x5 x7 x8) (k0_pay5 x9) (ix2 p q)
      = (((∑ k : Fin 256, x0 (ix2 p k) * x1 (ix2 k q)) + x4 (ix2 (0 : Fin 1) q)) * x7 (ix2 p (0 : Fin 1))
          + ((∑ k : Fin 256, x0 (ix2 p k) * x2 (ix2 k q)) + x5 (ix2 (0 : Fin 1) q)) * x8 (ix2 p (0 : Fin 1)))
        + ((∑ k : Fin 256, x0 (ix2 p k) * x3 (ix2 k q)) + x6 (ix2 (0 : Fin 1) q)) * x9 (ix2 p (0 : Fin 1)) := by
  unfold k0_pay1 k0_pay3 k0_pay4 k0_pay5
  rw [addf_apply, mulf_apply, addf_apply, mulf_apply, mulf_apply, addf_apply, addf_apply, addf_apply]
  exact congrArg₂ (· + ·)
    (congrArg₂ (· + ·)
      (congrArg₂ (· * ·) (proj_at x0 x1 x4 p q) (weight_col_at x7 p q))
      (congrArg₂ (· * ·) (proj_at x0 x2 x5 p q) (weight_col_at x8 p q)))
    (congrArg₂ (· * ·) (proj_at x0 x3 x6 p q) (weight_col_at x9 p q))

end Cert.KernelIdeal.BodyValue

end
-- ==== Proof.HostPrefix.lean ====
/-
  What the kernel's region finds in the arrays its windows stage.

  Before the region the host program prepares ten arrays from the nine arguments:
    · the history [2048, 64, 256] flattened to 131072 rows of 256 channels;
    · the three weight matrices, changed to a narrower float format — the identity on extended reals;
    · the three biases [512] seen as rows [1, 512];
    · the three role weights: per variable `v` (64 of them) the numbers
        tm v = the target flag,  im v = the intervention flag · (1 − tm v),  om v = (1 − tm v) · (1 − im v),
      each repeated over 2048 consecutive rows (row `r` carries variable `r / 2048`: `spread`), and seen as a
      column [131072, 1].
  Each lemma below reads one of these arrays off the host operations, as a term of the arguments.
-/
import proofs.«162440_j10075993277119_1_alg».proof.Proof.Gen.KernelIdeal.Frame
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem
  Idealize.ShloMosaic.StableHlo

/-! ## The prepared arrays, as functions of the arguments -/

/-- The history as 131072 rows of 256 channels. -/
def flat (x : (⟨S2048x64x256, .f32⟩ : BufTy).Contents (Elt Ideal)) : (⟨S131072x256, .f32⟩ : BufTy).Contents (Elt Ideal) :=
  shapeCast _ x shapeCasts_S2048x64x256_S131072x256

/-- The target weight of each variable: its flag as a number. -/
def roleT (a1 : (⟨S64, .i32⟩ : BufTy).Contents (Elt Ideal)) : (⟨S64, .f32⟩ : BufTy).Contents (Elt Ideal) :=
  sitofp (F := Ideal) .f32 a1

/-- The intervention weight: the intervention flag, switched off where the variable is a target. -/
def roleI (a1 a2 : (⟨S64, .i32⟩ : BufTy).Contents (Elt Ideal)) : (⟨S64, .f32⟩ : BufTy).Contents (Elt Ideal) :=
  mulf (sitofp (F := Ideal) .f32 a2) (subf (broadcastInDim S64 ![] bcast_S_S64 (constant (F := Ideal) S_ .f32 0x3F800000#32)) (sitofp (F := Ideal) .f32 a1))

/-- The weight of every other variable: neither target nor intervention. -/
def roleO (a1 a2 : (⟨S64, .i32⟩ : BufTy).Contents (Elt Ideal)) : (⟨S64, .f32⟩ : BufTy).Contents (Elt Ideal) :=
  mulf (subf (broadcastInDim S64 ![] bcast_S_S64 (constant (F := Ideal) S_ .f32 0x3F800000#32)) (sitofp (F := Ideal) .f32 a1))
    (subf (broadcastInDim S64 ![] bcast_S_S64 (constant (F := Ideal) S_ .f32 0x3F800000#32))
      (mulf (sitofp (F := Ideal) .f32 a2) (subf (broadcastInDim S64 ![] bcast_S_S64 (constant (F := Ideal) S_ .f32 0x3F800000#32)) (sitofp (F := Ideal) .f32 a1))))

/-- A per-variable weight repeated over 2048 consecutive rows: 131072 entries, entry `r` the weight of variable `r / 2048`. -/
def spread (w : (⟨S64, .f32⟩ : BufTy).Contents (Elt Ideal)) : (⟨S131072, .f32⟩ : BufTy).Contents (Elt Ideal) :=
  shapeCast _ (broadcastInDim S64x2048 ![0] bcast_S64_S64x2048_0 w) shapeCasts_S64x2048_S131072

variable (m : (ℓ : Loc nD τ sig) → Buf (Elt Ideal) ℓ)

/-! ## The windows' arrays at the region's entry -/

/-- Window 0: the flattened history. -/
theorem entry_history (c : Dev nD) :
    (V m c main_v19 : S131072x256.Idx → EReal) = flat (m ((c : Thread nD τ).loc main_arg0)) := by
  show StableHlo.after hostOps0 (fun b => m (c, b)) (Proc.devRef .tc main_v19) = _
  after_results
  rfl

/-- Windows 1, 2, 3: the weight matrices themselves. -/
theorem entry_Wt (c : Dev nD) :
    (V m c main_v20 : S256x512.Idx → EReal) = m ((c : Thread nD τ).loc main_arg3) := by
  show StableHlo.after hostOps0 (fun b => m (c, b)) (Proc.devRef .tc main_v20) = _
  after_results
  rfl
theorem entry_Wi (c : Dev nD) :
    (V m c main_v21 : S256x512.Idx → EReal) = m ((c : Thread nD τ).loc main_arg5) := by
  show StableHlo.after hostOps0 (fun b => m (c, b)) (Proc.devRef .tc main_v21) = _
  after_results
  rfl
theorem entry_Wo (c : Dev nD) :
    (V m c main_v22 : S256x512.Idx → EReal) = m ((c : Thread nD τ).loc main_arg7) := by
  show StableHlo.after hostOps0 (fun b => m (c, b)) (Proc.devRef .tc main_v22) = _
  after_results
  rfl

/-- Windows 4, 5, 6: the biases as rows. -/
theorem entry_bt (c : Dev nD) :
    (V m c main_v23 : S1x512.Idx → EReal) = shapeCast S1x512 (m ((c : Thread nD τ).loc main_arg4)) shapeCasts_S512_S1x512 := by
  show StableHlo.after hostOps0 (fun b => m (c, b)) (Proc.devRef .tc main_v23) = _
  after_results
  rfl
theorem entry_bi (c : Dev nD) :
    (V m c main_v24 : S1x512.Idx → EReal) = shapeCast S1x512 (m ((c : Thread nD τ).loc main_arg6)) shapeCasts_S512_S1x512 := by
  show StableHlo.after hostOps0 (fun b => m (c, b)) (Proc.devRef .tc main_v24) = _
  after_results
  rfl
theorem entry_bo (c : Dev nD) :
    (V m c main_v25 : S1x512.Idx → EReal) = shapeCast S1x512 (m ((c : Thread nD τ).loc main_arg8)) shapeCasts_S512_S1x512 := by
  show StableHlo.after hostOps0 (fun b => m (c, b)) (Proc.devRef .tc main_v25) = _
  after_results
  rfl

/-- Windows 7, 8, 9: the role weights, spread over the rows, as columns. -/
theorem entry_tm (c : Dev nD) :
    (V m c main_v12 : S131072x1.Idx → EReal)
      = shapeCast S131072x1 (spread (roleT (m ((c : Thread nD τ).loc main_arg1)))) shapeCasts_S131072_S131072x1 := by
  show StableHlo.after hostOps0 (fun b => m (c, b)) (Proc.devRef .tc main_v12) = _
  after_results
  rfl
theorem entry_im (c : Dev nD) :
    (V m c main_v15 : S131072x1.Idx → EReal)
      = shapeCast S131072x1 (spread (roleI (m ((c : Thread nD τ).loc main_arg1)) (m ((c : Thread nD τ).loc main_arg2)))) shapeCasts_S131072_S131072x1 := by
  show StableHlo.after hostOps0 (fun b => m (c, b)) (Proc.devRef .tc main_v15) = _
  after_results
  rfl
theorem entry_om (c : Dev nD) :
    (V m c main_v18 : S131072x1.Idx → EReal)
      = shapeCast S131072x1 (spread (roleO (m ((c : Thread nD τ).loc main_arg1)) (m ((c : Thread nD τ).loc main_arg2)))) shapeCasts_S131072_S131072x1 := by
  show StableHlo.after hostOps0 (fun b => m (c, b)) (Proc.devRef .tc main_v18) = _
  after_results
  rfl

end Cert.KernelIdeal.Entry

end
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.Blocks.lean ====
/-
  From blocks to the whole array.

  The grid has 64 points; point `t` works on rows `t · 2048 … t · 2048 + 2047`: it is handed that block of the
  flattened history and of the three role-weight columns, the weights and biases whole, and writes back that block of
  the output. Entry `(p, q)` of the block written at point `t` is therefore entry `(t · 2048 + p, q)` of
  `combined` of the prepared arrays; the 64 blocks tile the 131072 rows, so after the run the output array IS
  `combined` of the prepared arrays.
-/
import proofs.«162440_j10075993277119_1_alg».proof.Proof.Gen.KernelIdeal.Frame
import proofs.«162440_j10075993277119_1_alg».proof.Proof.Spec
import proofs.«162440_j10075993277119_1_alg».proof.Proof.Payload
import proofs.«162440_j10075993277119_1_alg».proof.Proof.HostPrefix
import proofs.«162440_j10075993277119_1_alg».proof.Proof.LibKeepdimsColumn
import Idealize.ShloMosaic.Lib.Pipeline.Value
import Idealize.ShloMosaic.Lib.ValueLayout

set_option maxRecDepth 16384

noncomputable section

namespace Cert.KernelIdeal.ArrayValue

open Cert.KernelIdeal Cert.KernelIdeal.Gen Cert.KernelIdeal.Entry Cert.KernelIdeal.BodyValue Cert.RoleProjection
open Idealize.ShloMosaic Idealize.ShloMosaic.TcCoe Idealize.ShloMosaic.ValueIdx Idealize.SL.Sem

/-! ## One stored entry is one entry of `combined` -/

/-- If, at block row `p` and column `q`, the ten loaded blocks hold what ten arrays hold at array row `r` and column
    `q` — the history block row `p` is the array's row `r`, the weights and biases are the arrays themselves, the role
    weights at block row `p` are the flat weights at `r` — then the stored value is `combined` at `(r, q)`. -/
theorem stored_is_combined (x0 : Vec Ideal S2048x256 .f32) (x1 x2 x3 : Vec Ideal S256x512 .bf16)
    (x4 x5 x6 : Vec Ideal S1x512 .f32) (x7 x8 x9 : Vec Ideal S2048x1 .f32)
    (fl : (⟨2, ![131072, 256]⟩ : Shape).Idx → EReal)
    (Wt : (⟨2, ![256, 512]⟩ : Shape).Idx → EReal) (bt : (⟨1, ![512]⟩ : Shape).Idx → EReal)
    (Wi : (⟨2, ![256, 512]⟩ : Shape).Idx → EReal) (bi : (⟨1, ![512]⟩ : Shape).Idx → EReal)
    (Wo : (⟨2, ![256, 512]⟩ : Shape).Idx → EReal) (bo : (⟨1, ![512]⟩ : Shape).Idx → EReal)
    (tm im om : (⟨1, ![131072]⟩ : Shape).Idx → EReal)
    (p : Fin 2048) (q : Fin 512) (r : Fin 131072)
    (h0 : ∀ k : Fin 256, x0 (ix2 p k) = fl (ix2 r k))
    (h1 : ∀ k : Fin 256, x1 (ix2 k q) = Wt (ix2 k q))
    (h2 : ∀ k : Fin 256, x2 (ix2 k q) = Wi (ix2 k q))
    (h3 : ∀ k : Fin 256, x3 (ix2 k q) = Wo (ix2 k q))
    (h4 : x4 (ix2 (0 : Fin 1) q) = bt (ix1 q)) (h5 : x5 (ix2 (0 : Fin 1) q) = bi (ix1 q))
    (h6 : x6 (ix2 (0 : Fin 1) q) = bo (ix1 q))
    (h7 : x7 (ix2 p (0 : Fin 1)) = tm (ix1 r)) (h8 : x8 (ix2 p (0 : Fin 1)) = im (ix1 r))
    (h9 : x9 (ix2 p (0 : Fin 1)) = om (ix1 r)) :
    k0_pay1 (F := Ideal) (k0_pay3 x0 x3 x6) (k0_pay4 x0 x1 x2 x4 x5 x7 x8) (k0_pay5 x9) (ix2 p q)
      = combined fl Wt bt Wi bi Wo bo tm im om (ix2 r q) := by
  rw [stored_at, combined_ix2]
  unfold combinedAt proj
  simp only [h0, h1, h2, h3, h4, h5, h6, h7, h8, h9]

variable (m : (ℓ : Loc nD τ sig) → Buf (Elt Ideal) ℓ)

/-- `combined` of the arrays the host program prepares from the arguments: what the output array will hold. -/
def target (c : Dev nD) : S131072x512.Idx → EReal :=
  combined (flat (m ((c : Thread nD τ).loc main_arg0))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (spread (roleT (m ((c : Thread nD τ).loc main_arg1)))) (spread (roleI (m ((c : Thread nD τ).loc main_arg1)) (m ((c : Thread nD τ).loc main_arg2)))) (spread (roleO (m ((c : Thread nD τ).loc main_arg1)) (m ((c : Thread nD τ).loc main_arg2))))

/-! ## The index maps, decided over the 64 points -/

theorem hz : (![0, 0] : Fin 2 → Nat) = fun _ => 0 := funext fun a => by fin_cases a <;> rfl

/-- At point `t` the output's block index is `(t, 0)`; the history's and the role weights' move with it; the weights'
    and the biases' stay at `(0, 0)`. -/
theorem idx_facts : ∀ t : Fin cfg0.N,
    win0_10.index t (0 : Fin 2) = t.val ∧ win0_10.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The array row of block row `p` at point `t`. -/
def rowOf (t : Fin cfg0.N) (p : Fin 2048) : Fin 131072 :=
  ⟨t.val * 2048 + p.val, by have ht : t.val < 64 := N_0 ▸ t.isLt; have hp := p.isLt; omega⟩

/-! ## Each input block, read where the output's block says -/

/-- The history block at point `t`, row `p`: the flattened history's row `t · 2048 + p`. -/
theorem history_blk (c : Dev nD) (t : Fin cfg0.N) (p : Fin 2048) (k : Fin 256) :
    iblk m c 0 t (ix2 p k) = flat (m ((c : Thread nD τ).loc main_arg0)) (ix2 (rowOf t p) k) := by
  obtain ⟨-, -, e0, e1, -⟩ := idx_facts t
  show V m c main_v19 (((cfg0.win 0).blk t).view.emb (ix2 p k)) = _
  refine (congrFun (entry_history m c) _).trans (congrArg _ (funext fun a => Fin.ext ?_))
  match a with
  | ⟨0, _⟩ => show win0_0.index t (0 : Fin 2) * 2048 + 1 * p.val = t.val * 2048 + p.val; omega
  | ⟨1, _⟩ => show win0_0.index t (1 : Fin 2) * 256 + 1 * k.val = k.val; omega

/-- The weight blocks are the weight matrices. -/
theorem Wt_blk (c : Dev nD) (t : Fin cfg0.N) (k : Fin 256) (q : Fin 512) :
    iblk m c 1 t (ix2 k q) = (m ((c : Thread nD τ).loc main_arg3)) (ix2 k q) := by
  obtain ⟨-, -, -, -, e0, e1, -⟩ := idx_facts t
  show V m c main_v20 (((cfg0.win 1).blk t).view.emb (ix2 k q)) = _
  refine (congrFun (entry_Wt m c) _).trans (congrArg _ (funext fun a => Fin.ext ?_))
  match a with
  | ⟨0, _⟩ => show win0_1.index t (0 : Fin 2) * 256 + 1 * k.val = k.val; omega
  | ⟨1, _⟩ => show win0_1.index t (1 : Fin 2) * 512 + 1 * q.val = q.val; omega
theorem Wi_blk (c : Dev nD) (t : Fin cfg0.N) (k : Fin 256) (q : Fin 512) :
    iblk m c 2 t (ix2 k q) = (m ((c : Thread nD τ).loc main_arg5)) (ix2 k q) := by
  obtain ⟨-, -, -, -, -, -, e0, e1, -⟩ := idx_facts t
  show V m c main_v21 (((cfg0.win 2).blk t).view.emb (ix2 k q)) = _
  refine (congrFun (entry_Wi m c) _).trans (congrArg _ (funext fun a => Fin.ext ?_))
  match a with
  | ⟨0, _⟩ => show win0_2.index t (0 : Fin 2) * 256 + 1 * k.val = k.val; omega
  | ⟨1, _⟩ => show win0_2.index t (1 : Fin 2) * 512 + 1 * q.val = q.val; omega
theorem Wo_blk (c : Dev nD) (t : Fin cfg0.N) (k : Fin 256) (q : Fin 512) :
    iblk m c 3 t (ix2 k q) = (m ((c : Thread nD τ).loc main_arg7)) (ix2 k q) := by
  obtain ⟨-, -, -, -, -, -, -, -, e0, e1, -⟩ := idx_facts t
  show V m c main_v22 (((cfg0.win 3).blk t).view.emb (ix2 k q)) = _
  refine (congrFun (entry_Wo m c) _).trans (congrArg _ (funext fun a => Fin.ext ?_))
  match a with
  | ⟨0, _⟩ => show win0_3.index t (0 : Fin 2) * 256 + 1 * k.val = k.val; omega
  | ⟨1, _⟩ => show win0_3.index t (1 : Fin 2) * 512 + 1 * q.val = q.val; omega

/-- The bias blocks are the biases, as rows. -/
theorem bt_blk (c : Dev nD) (t : Fin cfg0.N) (q : Fin 512) :
    iblk m c 4 t (ix2 (0 : Fin 1) q) = (m ((c : Thread nD τ).loc main_arg4)) (ix1 q) := by
  obtain ⟨-, -, -, -, -, -, -, -, -, -, e0, e1, -⟩ := idx_facts t
  show V m c main_v23 (((cfg0.win 4).blk t).view.emb (ix2 (0 : Fin 1) q)) = _
  have he : ((cfg0.win 4).blk t).view.emb (ix2 (0 : Fin 1) q) = ix2 (0 : Fin 1) q := funext fun a => Fin.ext (by
    match a with
    | ⟨0, _⟩ => show win0_4.index t (0 : Fin 2) * 1 + 1 * 0 = 0; omega
    | ⟨1, _⟩ => show win0_4.index t (1 : Fin 2) * 512 + 1 * q.val = q.val; omega)
  rw [he]
  exact (congrFun (entry_bt m c) _).trans (shapeCast_a_1a_apply _ shapeCasts_S512_S1x512 (0 : Fin 1) q)
theorem bi_blk (c : Dev nD) (t : Fin cfg0.N) (q : Fin 512) :
    iblk m c 5 t (ix2 (0 : Fin 1) q) = (m ((c : Thread nD τ).loc main_arg6)) (ix1 q) := by
  obtain ⟨-, -, -, -, -, -, -, -, -, -, -, -, e0, e1, -⟩ := idx_facts t
  show V m c main_v24 (((cfg0.win 5).blk t).view.emb (ix2 (0 : Fin 1) q)) = _
  have he : ((cfg0.win 5).blk t).view.emb (ix2 (0 : Fin 1) q) = ix2 (0 : Fin 1) q := funext fun a => Fin.ext (by
    match a with
    | ⟨0, _⟩ => show win0_5.index t (0 : Fin 2) * 1 + 1 * 0 = 0; omega
    | ⟨1, _⟩ => show win0_5.index t (1 : Fin 2) * 512 + 1 * q.val = q.val; omega)
  rw [he]
  exact (congrFun (entry_bi m c) _).trans (shapeCast_a_1a_apply _ shapeCasts_S512_S1x512 (0 : Fin 1) q)
theorem bo_blk (c : Dev nD) (t : Fin cfg0.N) (q : Fin 512) :
    iblk m c 6 t (ix2 (0 : Fin 1) q) = (m ((c : Thread nD τ).loc main_arg8)) (ix1 q) := by
  obtain ⟨-, -, -, -, -, -, -, -, -, -, -, -, -, -, e0, e1, -⟩ := idx_facts t
  show V m c main_v25 (((cfg0.win 6).blk t).view.emb (ix2 (0 : Fin 1) q)) = _
  have he : ((cfg0.win 6).blk t).view.emb (ix2 (0 : Fin 1) q) = ix2 (0 : Fin 1) q := funext fun a => Fin.ext (by
    match a with
    | ⟨0, _⟩ => show win0_6.index t (0 : Fin 2) * 1 + 1 * 0 = 0; omega
    | ⟨1, _⟩ => show win0_6.index t (1 : Fin 2) * 512 + 1 * q.val = q.val; omega)
  rw [he]
  exact (congrFun (entry_bo m c) _).trans (shapeCast_a_1a_apply _ shapeCasts_S512_S1x512 (0 : Fin 1) q)

/-- The role-weight blocks at point `t`, row `p`: the flat weights at row `t · 2048 + p`. -/
theorem tm_blk (c : Dev nD) (t : Fin cfg0.N) (p : Fin 2048) :
    iblk m c 7 t (ix2 p (0 : Fin 1)) = spread (roleT (m ((c : Thread nD τ).loc main_arg1))) (ix1 (rowOf t p)) := by
  obtain ⟨-, -, -, -, -, -, -, -, -, -, -, -, -, -, -, -, e0, e1, -⟩ := idx_facts t
  show V m c main_v12 (((cfg0.win 7).blk t).view.emb (ix2 p (0 : Fin 1))) = _
  have he : ((cfg0.win 7).blk t).view.emb (ix2 p (0 : Fin 1)) = ix2 (rowOf t p) (0 : Fin 1) := funext fun a => Fin.ext (by
    match a with
    | ⟨0, _⟩ => show win0_7.index t (0 : Fin 2) * 2048 + 1 * p.val = t.val * 2048 + p.val; omega
    | ⟨1, _⟩ => show win0_7.index t (1 : Fin 2) * 1 + 1 * 0 = 0; omega)
  rw [he]
  exact (congrFun (entry_tm m c) _).trans
    (Cert.LibKeepdims.shapeCast_a_a1_apply _ shapeCasts_S131072_S131072x1 (rowOf t p) (0 : Fin 1))
theorem im_blk (c : Dev nD) (t : Fin cfg0.N) (p : Fin 2048) :
    iblk m c 8 t (ix2 p (0 : Fin 1)) = spread (roleI (m ((c : Thread nD τ).loc main_arg1)) (m ((c : Thread nD τ).loc main_arg2))) (ix1 (rowOf t p)) := by
  obtain ⟨-, -, -, -, -, -, -, -, -, -, -, -, -, -, -, -, -, -, e0, e1, -⟩ := idx_facts t
  show V m c main_v15 (((cfg0.win 8).blk t).view.emb (ix2 p (0 : Fin 1))) = _
  have he : ((cfg0.win 8).blk t).view.emb (ix2 p (0 : Fin 1)) = ix2 (rowOf t p) (0 : Fin 1) := funext fun a => Fin.ext (by
    match a with
    | ⟨0, _⟩ => show win0_8.index t (0 : Fin 2) * 2048 + 1 * p.val = t.val * 2048 + p.val; omega
    | ⟨1, _⟩ => show win0_8.index t (1 : Fin 2) * 1 + 1 * 0 = 0; omega)
  rw [he]
  exact (congrFun (entry_im m c) _).trans
    (Cert.LibKeepdims.shapeCast_a_a1_apply _ shapeCasts_S131072_S131072x1 (rowOf t p) (0 : Fin 1))
theorem om_blk (c : Dev nD) (t : Fin cfg0.N) (p : Fin 2048) :
    iblk m c 9 t (ix2 p (0 : Fin 1)) = spread (roleO (m ((c : Thread nD τ).loc main_arg1)) (m ((c : Thread nD τ).loc main_arg2))) (ix1 (rowOf t p)) := by
  obtain ⟨-, -, -, -, -, -, -, -, -, -, -, -, -, -, -, -, -, -, -, -, e0, e1⟩ := idx_facts t
  show V m c main_v18 (((cfg0.win 9).blk t).view.emb (ix2 p (0 : Fin 1))) = _
  have he : ((cfg0.win 9).blk t).view.emb (ix2 p (0 : Fin 1)) = ix2 (rowOf t p) (0 : Fin 1) := funext fun a => Fin.ext (by
    match a with
    | ⟨0, _⟩ => show win0_9.index t (0 : Fin 2) * 2048 + 1 * p.val = t.val * 2048 + p.val; omega
    | ⟨1, _⟩ => show win0_9.index t (1 : Fin 2) * 1 + 1 * 0 = 0; omega)
  rw [he]
  exact (congrFun (entry_om m c) _).trans
    (Cert.LibKeepdims.shapeCast_a_a1_apply _ shapeCasts_S131072_S131072x1 (rowOf t p) (0 : Fin 1))

/-! ## What a point writes back -/

/-- What point `t` writes back is block `t` of `target`. -/
theorem flushed_eq (c : Dev nD) (t : Fin cfg0.N) :
    (dats m 0 c).flushed 10 t = ((cfg0.win 10).blk t).view.read (Elt Ideal) (target m c) := by
  show (cfg0.win 10).cut (grid0.coords t) ((dats m 0 c).after 10 t) = _
  rw [after0_10]
  unfold out0_10
  rw [View.canon_unit_zero hz]
  simp only [View.ld_unit_zero (S := S2048x256) hz, View.ld_unit_zero (S := S256x512) hz,
    View.ld_unit_zero (S := S1x512) hz, View.ld_unit_zero (S := S2048x1) hz]
  obtain ⟨e0, e1, -⟩ := idx_facts t
  refine funext fun (j : S2048x512.Idx) => ?_
  obtain ⟨p, q, rfl⟩ : ∃ (p : Fin 2048) (q : Fin 512), j = ix2 p q := ⟨j 0, j 1, eq_ix2 j⟩
  have he : ((cfg0.win 10).blk t).view.emb (ix2 p q) = ix2 (rowOf t p) q := funext fun a => Fin.ext (by
    match a with
    | ⟨0, _⟩ => show win0_10.index t (0 : Fin 2) * 2048 + 1 * p.val = t.val * 2048 + p.val; omega
    | ⟨1, _⟩ => show win0_10.index t (1 : Fin 2) * 512 + 1 * q.val = q.val; omega)
  show k0_pay1 (F := Ideal) (k0_pay3 (iblk m c 0 t) (iblk m c 3 t) (iblk m c 6 t))
      (k0_pay4 (iblk m c 0 t) (iblk m c 1 t) (iblk m c 2 t) (iblk m c 4 t) (iblk m c 5 t) (iblk m c 7 t) (iblk m c 8 t))
      (k0_pay5 (iblk m c 9 t)) (ix2 p q)
    = target m c (((cfg0.win 10).blk t).view.emb (ix2 p q))
  rw [he]
  unfold target
  exact stored_is_combined (iblk m c 0 t) (iblk m c 1 t) (iblk m c 2 t) (iblk m c 3 t) (iblk m c 4 t) (iblk m c 5 t)
    (iblk m c 6 t) (iblk m c 7 t) (iblk m c 8 t) (iblk m c 9 t) _ _ _ _ _ _ _ _ _ _ p q (rowOf t p)
    (fun k => history_blk m c t p k) (fun k => Wt_blk m c t k q) (fun k => Wi_blk m c t k q) (fun k => Wo_blk m c t k q)
    (bt_blk m c t q) (bi_blk m c t q) (bo_blk m c t q) (tm_blk m c t p) (im_blk m c t p) (om_blk m c t p)

/-! ## The blocks tile the array -/

/-- An index of the output array is in point `t`'s block iff each coordinate is in the block's range on its axis. -/
theorem mem_blk (t : Fin cfg0.N) (i : S131072x512.Idx) :
    i ∈ ((cfg0.win 10).blk t).view.set ↔ ∀ a : Fin 2, win0_10.index t a * S2048x512.size a ≤ (i a).val
      ∧ (i a).val < win0_10.index t a * S2048x512.size a + S2048x512.size a := by
  show i ∈ ((View.whole main_v26).slice (win0_10.rect t)).set ↔ _
  rw [View.set_slice_whole, Rect.mem_set_unit]
  exact Iff.rfl

/-- Row `r` lies in the block of point `r / 2048`. -/
theorem cover (i : S131072x512.Idx) :
    ∃ t : Fin cfg0.N, (cfg0.win 10).flush t = true ∧ i ∈ ((cfg0.win 10).blk t).view.set := by
  have hi0 : (i 0).val < 131072 := (i 0).isLt
  have hi1 : (i 1).val < 512 := (i 1).isLt
  let t : Fin cfg0.N := ⟨(i 0).val / 2048, by rw [show cfg0.N = 64 from N_0]; omega⟩
  have ht : t.val = (i 0).val / 2048 := rfl
  obtain ⟨e0, e1, -⟩ := idx_facts t
  refine ⟨t, flush0_10 t, ?_⟩
  rw [mem_blk]
  intro a
  match a with
  | ⟨0, _⟩ =>
    show win0_10.index t (0 : Fin 2) * 2048 ≤ (i 0).val ∧ (i 0).val < win0_10.index t (0 : Fin 2) * 2048 + 2048
    omega
  | ⟨1, _⟩ =>
    show win0_10.index t (1 : Fin 2) * 512 ≤ (i 1).val ∧ (i 1).val < win0_10.index t (1 : Fin 2) * 512 + 512
    omega

/-- The output array after the run is `target`. -/
theorem final (c : Dev nD) : (dats m 0 c).arrAt 10 cfg0.N = target m c :=
  (dats m 0 c).arrAt_eq_of_cover 10 (target m c) (fun t _ => flushed_eq m c t) cover

end Cert.KernelIdeal.ArrayValue

end
-- ==== Proof.KernelRun.lean ====
/-
  The kernel program's run, with its result named.

  After the region the host program reshapes the output array [131072, 512] to [2048, 64, 512]; the region's array
  holds `target` (the 64 blocks tile it), so the result is that reshape of `target`, and the nine arguments end as
  they were launched.
-/
import proofs.«162440_j10075993277119_1_alg».proof.Proof.Blocks
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

/-- The program's result: `target` seen as [2048, 64, 512]. -/
def result (c : Dev nD) : S2048x64x512.Idx → EReal :=
  shapeCast S2048x64x512 (target m c) shapeCasts_S131072x512_S2048x64x512

/-- The host line after the region reads the region's output array, which holds `target`. -/
theorem tail_eq (c : Dev nD) :
    (Pipeline.afterTail₀ cfgs (dats m) 0 (V0 m) [hostOps1] c main_v27 : S2048x64x512.Idx → EReal) = result m c := by
  unfold Pipeline.afterTail₀
  show StableHlo.after hostOps1 _ (Proc.devRef .tc main_v27) = _
  after_results
  exact congrArg (fun y => shapeCast S2048x64x512 y shapeCasts_S131072x512_S2048x64x512)
    ((Pipeline.withArrays_arr spec0 launch0.win.arr_inj c _ _ 10).trans (final m c))

/-- Every weakly fair execution of the kernel program terminates with its result at `result` and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v27 (Pipeline.mem_restRefs_of main_v27 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.ArrayValue

end
-- ==== Proof.lean ====
/-
  A role-based projection, fused and tiled, against its plain statement.

  Both programs take a history [2048, 64, 256], two 0/1 flag vectors over the 64 variables, and three affine maps
  256 → 512 (weights `Wt, Wi, Wo`, biases `bt, bi, bo`). From the flags they form per variable the role weights
      tm = target flag,   im = intervention flag · (1 − tm),   om = (1 − tm) · (1 − im),
  flatten the history to 131072 rows, and return, reshaped to [2048, 64, 512],
      ((flat·Wt + bt) · tm_r + (flat·Wi + bi) · im_r) + (flat·Wo + bo) · om_r
  where row `r` carries the weights of variable `r / 2048` (each weight repeated over 2048 consecutive rows).
  The reference does this with whole-array operations; the kernel does it 2048 rows at a time over a grid of 64
  points, with the three products, the biases and the mixing fused in one body.

  On the extended reals the two are ONE function, `combined` (Proof/Spec.lean), computed in one association:
    · Proof/RefIsSpec.lean — the reference's array before its last reshape is `combined`, entry by entry;
    · Proof/Payload.lean   — what the kernel body stores, entry by entry;
    · Proof/HostPrefix.lean — the arrays the kernel's host lines prepare for its windows;
    · Proof/Blocks.lean    — a stored block is a block of `combined`, and the 64 blocks tile the array;
    · Proof/KernelRun.lean — the kernel program's run with its result named.
  No law of arithmetic is needed beyond reading each layout at an index, so finiteness of the inputs is never used.
  Here: the two programs prepare the same arrays, the claims, and their assembly.
-/
import proofs.«162440_j10075993277119_1_alg».proof.Defs
import proofs.«162440_j10075993277119_1_alg».proof.Proof.Gen.Kernel
import proofs.«162440_j10075993277119_1_alg».proof.Proof.Gen.Kernel.Skeleton
import proofs.«162440_j10075993277119_1_alg».proof.Proof.Gen.Kernel.Launch
import proofs.«162440_j10075993277119_1_alg».proof.Proof.Gen.Kernel.Points
import proofs.«162440_j10075993277119_1_alg».proof.Proof.Gen.Kernel.Frame
import proofs.«162440_j10075993277119_1_alg».proof.Proof.Gen.KernelIdeal
import proofs.«162440_j10075993277119_1_alg».proof.Proof.Gen.KernelIdeal.Skeleton
import proofs.«162440_j10075993277119_1_alg».proof.Proof.Gen.KernelIdeal.Launch
import proofs.«162440_j10075993277119_1_alg».proof.Proof.Gen.KernelIdeal.Points
import proofs.«162440_j10075993277119_1_alg».proof.Proof.Gen.KernelIdeal.Frame
import proofs.«162440_j10075993277119_1_alg».proof.Proof.Gen.ReferenceIdeal
import proofs.«162440_j10075993277119_1_alg».proof.Proof.Gen.ReferenceIdeal.Run
import proofs.«162440_j10075993277119_1_alg».proof.Proof.Gen.ReferenceIdeal.Read
import proofs.«162440_j10075993277119_1_alg».proof.Proof.Gen.Pre_finite_inputs
import proofs.«162440_j10075993277119_1_alg».proof.Proof.RefIsSpec
import proofs.«162440_j10075993277119_1_alg».proof.Proof.KernelRun
import Idealize.ShloMosaic.Adequacy
import Idealize.ShloMosaic.Init

noncomputable section

namespace Cert.Proof

open Idealize.ShloMosaic Idealize.ShloMosaic.TcCoe Idealize.SL.Sem
open Cert.KernelIdeal.Entry Cert.RoleProjection

/-! ## The two programs prepare the same arrays -/

/-- The flattened history is the same reshape in both programs. -/
theorem same_history (x : (⟨Cert.ReferenceIdeal.S2048x64x256, .f32⟩ : BufTy).Contents (Elt Ideal)) :
    Cert.ReferenceIdeal.Read.val_main_v10 (F := Ideal) x = flat x := rfl

/-- The flat target weights: the same conversion, repetition and reshape. -/
theorem same_tm (a1 : (⟨Cert.ReferenceIdeal.S64, .i32⟩ : BufTy).Contents (Elt Ideal)) :
    Cert.ReferenceIdeal.Read.val_main_v24 (F := Ideal) a1 = spread (roleT a1) := rfl

/-- The flat intervention weights. -/
theorem same_im (a1 a2 : (⟨Cert.ReferenceIdeal.S64, .i32⟩ : BufTy).Contents (Elt Ideal)) :
    Cert.ReferenceIdeal.Read.val_main_v26 (F := Ideal) a1 a2 = spread (roleI a1 a2) := rfl

/-- The flat weights of the other variables. -/
theorem same_om (a1 a2 : (⟨Cert.ReferenceIdeal.S64, .i32⟩ : BufTy).Contents (Elt Ideal)) :
    Cert.ReferenceIdeal.Read.val_main_v28 (F := Ideal) a1 a2 = spread (roleO a1 a2) := rfl

/-- The reference's result is the reshape of `combined` of those arrays: the kernel program's `result`, spelt out. -/
theorem reference_result (x0 : (⟨Cert.ReferenceIdeal.S2048x64x256, .f32⟩ : BufTy).Contents (Elt Ideal)) (x1 x2 : (⟨Cert.ReferenceIdeal.S64, .i32⟩ : BufTy).Contents (Elt Ideal))
    (x3 : (⟨Cert.ReferenceIdeal.S256x512, .f32⟩ : BufTy).Contents (Elt Ideal)) (x4 : (⟨Cert.ReferenceIdeal.S512, .f32⟩ : BufTy).Contents (Elt Ideal)) (x5 : (⟨Cert.ReferenceIdeal.S256x512, .f32⟩ : BufTy).Contents (Elt Ideal)) (x6 : (⟨Cert.ReferenceIdeal.S512, .f32⟩ : BufTy).Contents (Elt Ideal))
    (x7 : (⟨Cert.ReferenceIdeal.S256x512, .f32⟩ : BufTy).Contents (Elt Ideal)) (x8 : (⟨Cert.ReferenceIdeal.S512, .f32⟩ : BufTy).Contents (Elt Ideal)) :
    Cert.ReferenceIdeal.Read.val_main_v40 (F := Ideal) x0 x1 x2 x3 x4 x5 x6 x7 x8
      = shapeCast Cert.KernelIdeal.S2048x64x512
          (combined (flat x0) x3 x4 x5 x6 x7 x8 (spread (roleT x1)) (spread (roleI x1 x2)) (spread (roleO x1 x2)))
          Cert.KernelIdeal.Facts₀.shapeCasts_S131072x512_S2048x64x512 := by
  unfold Cert.ReferenceIdeal.Read.val_main_v40
  rw [Cert.ReferenceIdeal.RefValue.stage39_eq, same_history, same_tm, same_im, same_om]

/-! ## The claims -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- From memories agreeing on the nine arguments both programs end with their result at `result`: the kernel program by
    its run (the blocks tile the array), the reference by its generated run read as `combined`. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8]
  exact (Cert.ReferenceIdeal.Read.val_main_v40_eq _ _ _ _ _ _ _ _ _).trans (reference_result _ _ _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
